-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S2x100000 : Shape := ⟨2, ![2, 100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64 .f32) (main_arg8 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : IVec S2x100000 32) (main_arg3 : FVec F S128x128 .f32) (main_arg4 : FVec F S128 .f32) (main_arg5 : FVec F S128x128 .f32) (main_arg6 : FVec F S64x128 .f32) (main_arg7 : FVec F S64 .f32) (main_arg8 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x640000 : Shape := ⟨2, ![2, 640000]⟩
abbrev S2x100000 : Shape := ⟨2, ![2, 100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S10000x128 : Shape := ⟨2, ![10000, 128]⟩
abbrev S1x64 : Shape := ⟨2, ![1, 64]⟩
abbrev S100000x64 : Shape := ⟨2, ![100000, 64]⟩
abbrev S10000x64 : Shape := ⟨2, ![10000, 64]⟩
abbrev S128x64 : Shape := ⟨2, ![128, 64]⟩
abbrev S1x100000 : Shape := ⟨2, ![1, 100000]⟩
abbrev S10000x1 : Shape := ⟨2, ![10000, 1]⟩
abbrev S10000 : Shape := ⟨1, ![10000]⟩

abbrev nBuf : Space → Nat
  | .hbm => 81
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S2x100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S640000, .f32⟩
  | .hbm, ⟨15, _⟩ => ⟨S_, .f32⟩
  | .hbm, ⟨16, _⟩ => ⟨S100000, .f32⟩
  | .hbm, ⟨17, _⟩ => ⟨S640000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .f32⟩
  | .hbm, ⟨33, _⟩ => ⟨S100000x128, .f32⟩
  | .hbm, ⟨34, _⟩ => ⟨S640000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S100000x128, .f32⟩
  | .hbm, ⟨51, _⟩ => ⟨S640000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1x64, .f32⟩
  | .hbm, ⟨56, _⟩ => ⟨S100000x64, .f32⟩
  | .hbm, ⟨57, _⟩ => ⟨S1x100000, .i32⟩
  | .hbm, ⟨58, _⟩ => ⟨S100000, .i32⟩
  | .hbm, ⟨59, _⟩ => ⟨S1x100000, .i32⟩
  | .hbm, ⟨60, _⟩ => ⟨S100000, .i32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S100000x64, .f32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S100000x64, .f32⟩
  | .hbm, ⟨79, _⟩ => ⟨S100000x1, .f32⟩
  | .hbm, ⟨80, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S64x128, .f32⟩
  | .local _ .vmem, ⟨14, _⟩ => ⟨S1x64, .f32⟩
  | .local _ .vmem, ⟨15, _⟩ => ⟨S64x128, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S2x100000_S1x100000_0_0 : S2x100000.Slices ![0, 0] S1x100000
  shapeCasts_S1x100000_S100000 : S1x100000.ShapeCasts S100000
  slices_S2x100000_S1x100000_1_0 : S2x100000.Slices ![1, 0] S1x100000
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S100000x1_S100000x64_1_0_n_n_0_1_164_wf : GatherDims.WF S100000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S2x100000 : Shape := ⟨2, ![2, 100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S1x100000 : Shape := ⟨2, ![1, 100000]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S2x100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S100000, .f32⟩
  | .hbm, ⟨30, _⟩ => ⟨S640000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S100000x128, .f32⟩
  | .hbm, ⟨60, _⟩ => ⟨S640000x1, .i32⟩
  | .hbm, ⟨61, _⟩ => ⟨S100000x128, .f32⟩
  | .hbm, ⟨62, _⟩ => ⟨S_, .f32⟩
  | .hbm, ⟨63, _⟩ => ⟨S640000, .f32⟩
  | .hbm, ⟨64, _⟩ => ⟨S_, .f32⟩
  | .hbm, ⟨65, _⟩ => ⟨S100000, .f32⟩
  | .hbm, ⟨66, _⟩ => ⟨S640000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S128x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S128x64, .f32⟩
  | .hbm, ⟨80, _⟩ => ⟨S100000x64, .f32⟩
  | .hbm, ⟨81, _⟩ => ⟨S100000x64, .f32⟩
  | .hbm, ⟨82, _⟩ => ⟨S1x100000, .i32⟩
  | .hbm, ⟨83, _⟩ => ⟨S100000, .i32⟩
  | .hbm, ⟨84, _⟩ => ⟨S_, .i32⟩
  | .hbm, ⟨85, _⟩ => ⟨S100000, .i32⟩
  | .hbm, ⟨86, _⟩ => ⟨S100000, .i1⟩
  | .hbm, ⟨87, _⟩ => ⟨S_, .i32⟩
  | .hbm, ⟨88, _⟩ => ⟨S100000, .i32⟩
  | .hbm, ⟨89, _⟩ => ⟨S100000, .i32⟩
  | .hbm, ⟨90, _⟩ => ⟨S100000, .i32⟩
  | .hbm, ⟨91, _⟩ => ⟨S100000x1, .i32⟩
  | .hbm, ⟨92, _⟩ => ⟨S100000x64, .f32⟩
  | .hbm, ⟨93, _⟩ => ⟨S1x100000, .i32⟩
  | .hbm, ⟨94, _⟩ => ⟨S100000, .i32⟩
  | .hbm, ⟨95, _⟩ => ⟨S_, .i32⟩
  | .hbm, ⟨96, _⟩ => ⟨S100000, .i32⟩
  | .hbm, ⟨97, _⟩ => ⟨S100000, .i1⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S100000, .i32⟩
  | .hbm, ⟨102, _⟩ => ⟨S100000x1, .i32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x64_S100000_d1 : S100000x64.ReducesTo [1] S100000
  h_S_ : 0 < S_.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S100000x1_S100000x64_1_0_n_n_0_1_164_wf : GatherDims.WF S100000x64 S100000x1 S100000x64 [1] [0] [] [0] [] 1 ![1, 64]

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

class Facts : Prop extends Facts₀ where

variable [Facts]
-- ==== Proof.KernelRun.lean ====
/-
  The idealized kernel program's run with its result named.

  The program is seven segments: four stretches of host operations around three pipelined regions. The buffer
  contents at each segment boundary are a fold from the launch memory (`Gen.W0` … `Gen.W7`): a host stretch
  applies its operations, a region replaces its output array by what its write-backs leave. The library's
  launch theorem for a program of several regions runs the segments one after the other and ends with every
  unscoped buffer at the last boundary's contents. Here that conclusion is kept whole — the frame claim keeps
  only the argument arrays — and then read at the result buffer `main_v58` and at the nine arguments.
-/
import proofs.«100602_j10694468567086_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every unscoped buffer of every core ends at the contents the
    fold through the seven segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, read at the result and at the arguments: the result ends at the last boundary's contents,
    every argument array as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v58 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

end Cert.KernelIdeal.Whole

end
-- ==== Proof.Spec.lean ====
/-
  What the three dense stages of the two-layer mean-aggregation network compute, index by index, on the
  extended reals, for any numbers of rows.

  * `rowDot A B p q` is entry (p, q) of A · Bᵀ: the sum over k of A p k · B q k. Both weight matrices enter
    transposed, so the contraction runs along the second axis of both factors.
  * `lin mean x Wl Wr b p q` is entry (p, q) of one layer before its activation:
    (mean · Wlᵀ + b) + x · Wrᵀ, added in that order (the order matters on the extended reals only through
    the way the terms are grouped, which is the same wherever this is used).
  * `hidden` is the first layer, `max (lin …) 0`; `out` is the second layer, `lin …` itself.
  * `score zu zv p` is the decode of pair p: 0 + the sum over k of zu p k · zv p k.

  The number of rows is a parameter, so the same definition speaks of a block of rows and of the whole
  array: a row's entry depends on that row of `mean` and `x` only.
-/
import Idealize.ShloMosaic.Lib.ValueIdx
import Idealize.ShloMosaic.PureOps.Ideal
import Idealize.ShloMosaic.PureOps.Ideal.Laws

noncomputable section

namespace Cert.Sage

open Idealize.ShloMosaic Idealize.ShloMosaic.ValueIdx

/-- Entry (p, q) of A · Bᵀ. -/
def rowDot {M N K : Nat} (A : (⟨2, ![M, K]⟩ : Shape).Idx → EReal) (B : (⟨2, ![N, K]⟩ : Shape).Idx → EReal)
    (p : Fin M) (q : Fin N) : EReal :=
  ∑ k : Fin K, A (ix2 p k) * B (ix2 q k)

/-- Entry (p, q) of (mean · Wlᵀ + b) + x · Wrᵀ, the bias being the one row of a [1, C] matrix. -/
def lin {M C K : Nat} (mean x : (⟨2, ![M, K]⟩ : Shape).Idx → EReal) (Wl Wr : (⟨2, ![C, K]⟩ : Shape).Idx → EReal)
    (b : (⟨2, ![1, C]⟩ : Shape).Idx → EReal) (p : Fin M) (q : Fin C) : EReal :=
  (rowDot mean Wl p q + b (ix2 (0 : Fin 1) q)) + rowDot x Wr p q

/-- A row's entry of `lin` depends on that row of `mean` and of `x` only: if row r of a block is row p of
    the array, the block's entry (r, q) is the array's entry (p, q). -/
theorem lin_congr_rows {M M' C K : Nat} (mean x : (⟨2, ![M, K]⟩ : Shape).Idx → EReal)
    (mean' x' : (⟨2, ![M', K]⟩ : Shape).Idx → EReal) (Wl Wr : (⟨2, ![C, K]⟩ : Shape).Idx → EReal)
    (b : (⟨2, ![1, C]⟩ : Shape).Idx → EReal) (r : Fin M') (p : Fin M) (q : Fin C)
    (hm : ∀ k : Fin K, mean' (ix2 r k) = mean (ix2 p k)) (hx : ∀ k : Fin K, x' (ix2 r k) = x (ix2 p k)) :
    lin mean' x' Wl Wr b r q = lin mean x Wl Wr b p q := by
  have h1 : rowDot mean' Wl r q = rowDot mean Wl p q := Finset.sum_congr rfl fun k _ => by rw [hm k]
  have h2 : rowDot x' Wr r q = rowDot x Wr p q := Finset.sum_congr rfl fun k _ => by rw [hx k]
  unfold lin
  rw [h1, h2]

/-- `lin` reads, for its entry (p, q), row p of `mean` and `x`, row q of the two weight matrices and entry q of
    the bias: two families of operands that agree on those entries have the same entry. -/
theorem lin_congr {M M' C K : Nat} (mean x : (⟨2, ![M, K]⟩ : Shape).Idx → EReal)
    (mean' x' : (⟨2, ![M', K]⟩ : Shape).Idx → EReal) (Wl Wr Wl' Wr' : (⟨2, ![C, K]⟩ : Shape).Idx → EReal)
    (b b' : (⟨2, ![1, C]⟩ : Shape).Idx → EReal) (r : Fin M') (p : Fin M) (q : Fin C)
    (hm : ∀ k : Fin K, mean' (ix2 r k) = mean (ix2 p k)) (hx : ∀ k : Fin K, x' (ix2 r k) = x (ix2 p k))
    (hl : ∀ k : Fin K, Wl' (ix2 q k) = Wl (ix2 q k)) (hr : ∀ k : Fin K, Wr' (ix2 q k) = Wr (ix2 q k))
    (hb : b' (ix2 (0 : Fin 1) q) = b (ix2 (0 : Fin 1) q)) :
    lin mean' x' Wl' Wr' b' r q = lin mean x Wl Wr b p q := by
  have h1 : rowDot mean' Wl' r q = rowDot mean Wl p q := Finset.sum_congr rfl fun k _ => by rw [hm k, hl k]
  have h2 : rowDot x' Wr' r q = rowDot x Wr p q := Finset.sum_congr rfl fun k _ => by rw [hx k, hr k]
  unfold lin
  rw [h1, h2, hb]

/-- The first layer as a whole array: the rectified `lin`. -/
def hidden {M C K : Nat} (mean x : (⟨2, ![M, K]⟩ : Shape).Idx → EReal) (Wl Wr : (⟨2, ![C, K]⟩ : Shape).Idx → EReal)
    (b : (⟨2, ![1, C]⟩ : Shape).Idx → EReal) : (⟨2, ![M, C]⟩ : Shape).Idx → EReal :=
  fun i => max (lin mean x Wl Wr b (⟨(i 0).val, (i 0).isLt⟩ : Fin M) (⟨(i 1).val, (i 1).isLt⟩ : Fin C))
    (Ideal.ofBits .f32 0x00000000#32)

/-- The second layer as a whole array: `lin` itself. -/
def out {M C K : Nat} (mean x : (⟨2, ![M, K]⟩ : Shape).Idx → EReal) (Wl Wr : (⟨2, ![C, K]⟩ : Shape).Idx → EReal)
    (b : (⟨2, ![1, C]⟩ : Shape).Idx → EReal) : (⟨2, ![M, C]⟩ : Shape).Idx → EReal :=
  fun i => lin mean x Wl Wr b (⟨(i 0).val, (i 0).isLt⟩ : Fin M) (⟨(i 1).val, (i 1).isLt⟩ : Fin C)

theorem hidden_ix2 {M C K : Nat} (mean x : (⟨2, ![M, K]⟩ : Shape).Idx → EReal) (Wl Wr : (⟨2, ![C, K]⟩ : Shape).Idx → EReal)
    (b : (⟨2, ![1, C]⟩ : Shape).Idx → EReal) (p : Fin M) (q : Fin C) :
    hidden mean x Wl Wr b (ix2 p q) = max (lin mean x Wl Wr b p q) (Ideal.ofBits .f32 0x00000000#32) := rfl

theorem out_ix2 {M C K : Nat} (mean x : (⟨2, ![M, K]⟩ : Shape).Idx → EReal) (Wl Wr : (⟨2, ![C, K]⟩ : Shape).Idx → EReal)
    (b : (⟨2, ![1, C]⟩ : Shape).Idx → EReal) (p : Fin M) (q : Fin C) :
    out mean x Wl Wr b (ix2 p q) = lin mean x Wl Wr b p q := rfl

/-- The inner product of row p of `zu` with row p of `zv`. -/
def dots {M K : Nat} (zu zv : (⟨2, ![M, K]⟩ : Shape).Idx → EReal) (p : Fin M) : EReal :=
  ∑ k : Fin K, zu (ix2 p k) * zv (ix2 p k)

/-- A row's inner product depends on that row of the two operands only. -/
theorem dots_congr_rows {M M' K : Nat} (zu zv : (⟨2, ![M, K]⟩ : Shape).Idx → EReal)
    (zu' zv' : (⟨2, ![M', K]⟩ : Shape).Idx → EReal) (r : Fin M') (p : Fin M)
    (hu : ∀ k : Fin K, zu' (ix2 r k) = zu (ix2 p k)) (hv : ∀ k : Fin K, zv' (ix2 r k) = zv (ix2 p k)) :
    dots zu' zv' r = dots zu zv p :=
  Finset.sum_congr rfl fun k _ => by rw [hu k, hv k]

/-- The decode of pair p: the inner product of row p of `zu` with row p of `zv`, summed from zero. -/
def score {M K : Nat} (zu zv : (⟨2, ![M, K]⟩ : Shape).Idx → EReal) (p : Fin M) : EReal :=
  Ideal.ofBits .f32 0x00000000#32 + ∑ k : Fin K, zu (ix2 p k) * zv (ix2 p k)

/-- Summing from zero adds nothing: the zero word is the real number 0. -/
theorem score_eq {M K : Nat} (zu zv : (⟨2, ![M, K]⟩ : Shape).Idx → EReal) (p : Fin M) : score zu zv p = dots zu zv p := by
  unfold score dots
  rw [Ideal.ofBits_zero_f32, zero_add]

/-- The decode as a one-column matrix, the form the kernel stores it in. -/
def scoreCol {M K : Nat} (zu zv : (⟨2, ![M, K]⟩ : Shape).Idx → EReal) : (⟨2, ![M, 1]⟩ : Shape).Idx → EReal :=
  fun i => score zu zv (⟨(i 0).val, (i 0).isLt⟩ : Fin M)

theorem scoreCol_ix2 {M K : Nat} (zu zv : (⟨2, ![M, K]⟩ : Shape).Idx → EReal) (p : Fin M) (u : Fin 1) :
    scoreCol zu zv (ix2 p u) = score zu zv p := rfl

/-- The decode as a vector. -/
def scores {M K : Nat} (zu zv : (⟨2, ![M, K]⟩ : Shape).Idx → EReal) : (⟨1, ![M]⟩ : Shape).Idx → EReal :=
  fun i => score zu zv (⟨(i 0).val, (i 0).isLt⟩ : Fin M)

theorem scores_ix1 {M K : Nat} (zu zv : (⟨2, ![M, K]⟩ : Shape).Idx → EReal) (p : Fin M) :
    scores zu zv (ix1 p) = score zu zv p := rfl

/-- A pair's score depends on that row of the two operands only. -/
theorem score_congr_rows {M M' K : Nat} (zu zv : (⟨2, ![M, K]⟩ : Shape).Idx → EReal)
    (zu' zv' : (⟨2, ![M', K]⟩ : Shape).Idx → EReal) (r : Fin M') (p : Fin M)
    (hu : ∀ k : Fin K, zu' (ix2 r k) = zu (ix2 p k)) (hv : ∀ k : Fin K, zv' (ix2 r k) = zv (ix2 p k)) :
    score zu' zv' r = score zu zv p := by
  unfold score
  exact congrArg (Ideal.ofBits .f32 0x00000000#32 + ·) (Finset.sum_congr rfl fun k _ => by rw [hu k, hv k])

end Cert.Sage

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Payload.lean ====
/-
  The three kernel bodies' arithmetic, read at one entry of the block each stores, at the ideal values.

  A combine body stores, at row r and column q of its block of rows,
  (Σ_k mean r k · Wl q k + b q) + Σ_k x r k · Wr q k — rectified in the first layer, as it is in the second:
  the narrowing of the operands to a shorter float format is the identity on the extended reals, each weight
  matrix is transposed before the product, so the contraction runs along its second axis, the product starts
  from a zero accumulator, and the bias is one row spread over all rows. That is `Sage.lin` of the blocks.
  The decode body stores, at row r of its one-column block, the sum over k of zu r k · zv r k.
-/
import proofs.«100602_j10694468567086_1_alg».proof.Proof.Gen.KernelIdeal.Skeleton
import proofs.«100602_j10694468567086_1_alg».proof.Proof.Spec
import proofs.«100602_j10694468567086_1_alg».proof.Proof.LibMatmulRowCol
import proofs.«100602_j10694468567086_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! The dimension numbers `dot_S10000x128_S128x128_S10000x128_1_0_0_1_n_n` contract the left operand's columns against the right operand's rows. -/
theorem d128_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d128_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem d128_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem d128_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! The dimension numbers `dot_S10000x128_S128x64_S10000x64_1_0_0_1_n_n` contract the left operand's columns against the right operand's rows. -/
theorem d64_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem d64_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem d64_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem d64_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A product of a block of rows with a transposed 128 × 128 weight matrix, from zero: entry (r, q) is the
    sum over k of X r k · W q k, whatever shorter-format copies `X'`, `W'` of the factors are multiplied. -/
theorem mmT128 (X' : FVec Ideal S10000x128 .bf16) (W' : FVec Ideal S128x128 .bf16)
    (X : S10000x128.Idx → EReal) (W : S128x128.Idx → EReal)
    (hX : ∀ (r : Fin 10000) (k : Fin 128), X' (ix2 r k) = X (ix2 r k))
    (hW : ∀ (k : Fin 128) (q : Fin 128), W' (ix2 k q) = W (ix2 q k)) (r : Fin 10000) (q : Fin 128) :
    matmul dot_S10000x128_S128x128_S10000x128_1_0_0_1_n_n none X' W' (constant S10000x128 .f32 0x00000000#32) (ix2 r q) = Sage.rowDot X W r q := by
  refine (Cert.LibMatmul.matmul_rowcol dot_S10000x128_S128x128_S10000x128_1_0_0_1_n_n rfl rfl d128_l0 d128_l1 d128_r0 d128_r1 X' W' r q).trans ?_
  unfold Sage.rowDot
  exact Finset.sum_congr rfl fun k _ => by rw [hX r k, hW k q]

/-- The same for a 64 × 128 weight matrix: the block of results has 64 columns. -/
theorem mmT64 (X' : FVec Ideal S10000x128 .bf16) (W' : FVec Ideal S128x64 .bf16)
    (X : S10000x128.Idx → EReal) (W : S64x128.Idx → EReal)
    (hX : ∀ (r : Fin 10000) (k : Fin 128), X' (ix2 r k) = X (ix2 r k))
    (hW : ∀ (k : Fin 128) (q : Fin 64), W' (ix2 k q) = W (ix2 q k)) (r : Fin 10000) (q : Fin 64) :
    matmul dot_S10000x128_S128x64_S10000x64_1_0_0_1_n_n none X' W' (constant S10000x64 .f32 0x00000000#32) (ix2 r q) = Sage.rowDot X W r q := by
  refine (Cert.LibMatmul.matmul_rowcol dot_S10000x128_S128x64_S10000x64_1_0_0_1_n_n rfl rfl d64_l0 d64_l1 d64_r0 d64_r1 X' W' r q).trans ?_
  unfold Sage.rowDot
  exact Finset.sum_congr rfl fun k _ => by rw [hX r k, hW k q]

/-- The first combine body's stored value at (r, q): the rectified `lin` of its five loaded blocks. -/
theorem pay0_apply (v0 v3 : Vec Ideal S10000x128 .f32) (v5 v7 : Vec Ideal S128x128 .f32) (v11 : Vec Ideal S1x128 .f32)
    (r : Fin 10000) (q : Fin 128) :
    k0_pay1 (F := Ideal) v0 v3 v5 v7 v11 (ix2 r q)
      = max (Sage.lin v0 v3 v5 v7 v11 r q) (Ideal.ofBits .f32 0x00000000#32) := by
  unfold k0_pay1 Sage.lin
  dsimp only
  simp only [shapeCast_self]
  rw [maximumf_apply, addf_apply, addf_apply]
  refine congrArg₂ max (congrArg₂ (· + ·) (congrArg₂ (· + ·) (mmT128 _ _ v0 v5 ?_ ?_ r q)
    (broadcastTo_1b_ab_apply _ _ r q)) (mmT128 _ _ v3 v7 ?_ ?_ r q)) rfl
  · intro r k; rfl
  · intro k q; exact transpose_ix2_apply _ _ k q
  · intro r k; rfl
  · intro k q; exact transpose_ix2_apply _ _ k q

/-- The second combine body's stored value at (r, q): `lin` of its five loaded blocks. -/
theorem pay1_apply (v0 v3 : Vec Ideal S10000x128 .f32) (v6 v8 : Vec Ideal S64x128 .f32) (v12 : Vec Ideal S1x64 .f32)
    (r : Fin 10000) (q : Fin 64) :
    k1_pay1 (F := Ideal) v0 v3 v6 v8 v12 (ix2 r q) = Sage.lin v0 v3 v6 v8 v12 r q := by
  unfold k1_pay1 Sage.lin
  dsimp only
  simp only [shapeCast_self]
  rw [addf_apply, addf_apply]
  refine congrArg₂ (· + ·) (congrArg₂ (· + ·) (mmT64 _ _ v0 v6 ?_ ?_ r q)
    (broadcastTo_1b_ab_apply _ _ r q)) (mmT64 _ _ v3 v8 ?_ ?_ r q)
  · intro r k; rfl
  · intro k q; exact transpose_ix2_apply _ _ k q
  · intro r k; rfl
  · intro k q; exact transpose_ix2_apply _ _ k q

/-- The source indices a row sum over the second axis reads: (r, k) for k along that axis. -/
theorem lift_row (h : S10000x64.Reduces [1] S10000) (r : Fin 10000) (k : Fin (S10000x64.size 1)) :
    h.lift (ix1 r) k = ix2 r (⟨k.val, k.isLt⟩ : Fin 64) := by
  funext c; apply Fin.ext
  match c with
  | ⟨0, _⟩ => rfl
  | ⟨1, _⟩ => rfl

/-- A sum along the second axis from the zero word, at row r: the sum over k of the entries (r, k). -/
theorem rowSum_apply (src : FVec Ideal S10000x64 .f32) (h : S10000x64.Reduces [1] S10000) (hφ : FKind.Formats .f32)
    (hacc : (0x00000000#32 : BitVec 32) = 0x00000000#32) (r : Fin 10000) :
    multiReduction .add [1] S10000 src 0x00000000#32 h hφ hacc (ix1 r) = ∑ k : Fin 64, src (ix2 r k) :=
  (Ideal.multiReduction_add_single src 0x00000000#32 h hφ hacc (ix1 r)).trans
    (Finset.sum_congr rfl fun k _ => congrArg src (lift_row h r k))

/-- The decode body's stored value at (r, 0): the sum over k of the products of the two blocks' entries (r, k). -/
theorem pay2_apply (v0 v2 : Vec Ideal S10000x64 .f32) (r : Fin 10000) (u : Fin 1) :
    k2_pay1 (F := Ideal) v0 v2 (ix2 r u) = ∑ k : Fin 64, v0 (ix2 r k) * v2 (ix2 r k) := by
  unfold k2_pay1
  dsimp only
  simp only [shapeCast_self]
  refine (Cert.Lib.Column.shapeCast_a_a1_apply _ _ r u).trans ?_
  refine (rowSum_apply _ _ _ _ r).trans ?_
  rfl

end Cert.KernelIdeal.Payload

end
-- ==== Proof.Region0.lean ====
/-
  Region 0 (the first layer's combine): the array it leaves is `Sage.hidden` of the arrays it finds, whatever those are.

  The grid has ten points; point t stages rows 10000·t … 10000·t + 9999 of the two row operands and of the
  result, and the two weight matrices and the bias row whole. So the body's stored block, which is
  `Sage.lin` of its loaded blocks (rectified in the first layer), is rows 10000·t … of `Sage.hidden` of the whole
  arrays — a row's entry depends on that row of the row operands only —, and the ten blocks tile the result.
-/
import proofs.«100602_j10694468567086_1_alg».proof.Proof.Gen.KernelIdeal.Frame
import proofs.«100602_j10694468567086_1_alg».proof.Proof.Payload
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row operands move with the result along the rows,
    every other block index is zero, and the result's row-block index is at most 9. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block of the result is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point t writes back is block t of `Sage.hidden` of the arrays the region finds. -/
theorem flushed_eq (c : Dev nD) (t : Fin cfg0.N) :
    (dat0 V c).flushed 5 t = ((cfg0.win 5).blk t).view.read (Elt Ideal)
      (Sage.hidden (M := 100000) (C := 128) (K := 128) (V c main_v22) (V c main_arg0) (V c main_arg3) (V c main_arg5) (V c main_v23)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e51, e5⟩ := idx_facts t
  funext j
  obtain ⟨r, q, rfl⟩ : ∃ (r : Fin 10000) (q : Fin 128), j = ix2 r q := ⟨j 0, j 1, eq_ix2 j⟩
  have hr : r.val < 10000 := r.isLt
  have hq : q.val < 128 := q.isLt
  show k0_pay1 (F := Ideal) (iblk0 V c 0 t) (iblk0 V c 1 t) (iblk0 V c 2 t) (iblk0 V c 4 t) (iblk0 V c 3 t) (ix2 r q)
    = Sage.hidden (M := 100000) (C := 128) (K := 128) (V c main_v22) (V c main_arg0) (V c main_arg3) (V c main_arg5) (V c main_v23)
        (((cfg0.win 5).blk t).view.emb (ix2 r q))
  have hemb : ((cfg0.win 5).blk t).view.emb (ix2 r q)
      = ix2 (⟨win0_5.index t (0 : Fin 2) * 10000 + r.val, by omega⟩ : Fin 100000) q := by
    funext a; apply Fin.ext
    match a with
    | ⟨0, _⟩ => show win0_5.index t (0 : Fin 2) * 10000 + 1 * r.val = win0_5.index t (0 : Fin 2) * 10000 + r.val; omega
    | ⟨1, _⟩ => show win0_5.index t (1 : Fin 2) * 128 + 1 * q.val = q.val; omega
  rw [hemb, Sage.hidden_ix2]
  refine (Payload.pay0_apply (iblk0 V c 0 t) (iblk0 V c 1 t) (iblk0 V c 2 t) (iblk0 V c 4 t) (iblk0 V c 3 t) r q).trans ?_
  refine congrArg (max · (Ideal.ofBits .f32 0x00000000#32)) ?_
  refine Sage.lin_congr (V c main_v22) (V c main_arg0) (iblk0 V c 0 t) (iblk0 V c 1 t) (V c main_arg3) (V c main_arg5) (iblk0 V c 2 t) (iblk0 V c 4 t)
    (V c main_v23) (iblk0 V c 3 t) r _ q ?_ ?_ ?_ ?_ ?_
  · intro k
    have hk : k.val < 128 := k.isLt
    show V c main_v22 (((cfg0.win 0).blk t).view.emb (ix2 r k)) = V c main_v22 _
    refine congrArg (V c main_v22) (funext fun a => Fin.ext ?_)
    match a with
    | ⟨0, _⟩ => show win0_0.index t (0 : Fin 2) * 10000 + 1 * r.val = win0_5.index t (0 : Fin 2) * 10000 + r.val; omega
    | ⟨1, _⟩ => show win0_0.index t (1 : Fin 2) * 128 + 1 * k.val = k.val; omega
  · intro k
    have hk : k.val < 128 := k.isLt
    show V c main_arg0 (((cfg0.win 1).blk t).view.emb (ix2 r k)) = V c main_arg0 _
    refine congrArg (V c main_arg0) (funext fun a => Fin.ext ?_)
    match a with
    | ⟨0, _⟩ => show win0_1.index t (0 : Fin 2) * 10000 + 1 * r.val = win0_5.index t (0 : Fin 2) * 10000 + r.val; omega
    | ⟨1, _⟩ => show win0_1.index t (1 : Fin 2) * 128 + 1 * k.val = k.val; omega
  · intro k
    have hk : k.val < 128 := k.isLt
    show V c main_arg3 (((cfg0.win 2).blk t).view.emb (ix2 q k)) = V c main_arg3 _
    refine congrArg (V c main_arg3) (funext fun a => Fin.ext ?_)
    match a with
    | ⟨0, _⟩ => show win0_2.index t (0 : Fin 2) * 128 + 1 * q.val = q.val; omega
    | ⟨1, _⟩ => show win0_2.index t (1 : Fin 2) * 128 + 1 * k.val = k.val; omega
  · intro k
    have hk : k.val < 128 := k.isLt
    show V c main_arg5 (((cfg0.win 4).blk t).view.emb (ix2 q k)) = V c main_arg5 _
    refine congrArg (V c main_arg5) (funext fun a => Fin.ext ?_)
    match a with
    | ⟨0, _⟩ => show win0_4.index t (0 : Fin 2) * 128 + 1 * q.val = q.val; omega
    | ⟨1, _⟩ => show win0_4.index t (1 : Fin 2) * 128 + 1 * k.val = k.val; omega
  · show V c main_v23 (((cfg0.win 3).blk t).view.emb (ix2 (0 : Fin 1) q)) = V c main_v23 _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An index of the result is in point t's block iff each coordinate is in the block's range on its axis. -/
theorem mem_blk (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v24).slice (win0_5.rect t)).set ↔ _
  rw [View.set_slice_whole, Rect.mem_set_unit]
  exact Iff.rfl

/-- The ten row blocks tile the result: row p is in the block of the point whose row-block index is p / 10000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- The result array after the region: `Sage.hidden` of the arrays the region found. -/
theorem final (c : Dev nD) : (dat0 V c).arrAt 5 cfg0.N
    = Sage.hidden (M := 100000) (C := 128) (K := 128) (V c main_v22) (V c main_arg0) (V c main_arg3) (V c main_arg5) (V c main_v23) :=
  (dat0 V c).arrAt_eq_of_cover 5 _ (fun t _ => flushed_eq V c t) cover

end Cert.KernelIdeal.Region0

end
-- ==== Proof.Region1.lean ====
/-
  Region 1 (the second layer's combine): the array it leaves is `Sage.out` of the arrays it finds, whatever those are.

  The grid has ten points; point t stages rows 10000·t … 10000·t + 9999 of the two row operands and of the
  result, and the two weight matrices and the bias row whole. So the body's stored block, which is
  `Sage.lin` of its loaded blocks (rectified in the first layer), is rows 10000·t … of `Sage.out` of the whole
  arrays — a row's entry depends on that row of the row operands only —, and the ten blocks tile the result.
-/
import proofs.«100602_j10694468567086_1_alg».proof.Proof.Gen.KernelIdeal.Frame
import proofs.«100602_j10694468567086_1_alg».proof.Proof.Payload
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row operands move with the result along the rows,
    every other block index is zero, and the result's row-block index is at most 9. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block of the result is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point t writes back is block t of `Sage.out` of the arrays the region finds. -/
theorem flushed_eq (c : Dev nD) (t : Fin cfg1.N) :
    (dat1 V c).flushed 5 t = ((cfg1.win 5).blk t).view.read (Elt Ideal)
      (Sage.out (M := 100000) (C := 64) (K := 128) (V c main_v36) (V c main_v24) (V c main_arg6) (V c main_arg8) (V c main_v37)) := by
  show (cfg1.win 5).cut (grid1.coords t) ((dat1 V c).after 5 t) = _
  rw [after1_5]
  unfold out1_5
  rw [View.canon_unit_zero hz]
  simp only [View.ld_unit_zero (S := S10000x128) hz, View.ld_unit_zero (S := S64x128) hz, View.ld_unit_zero (S := S1x64) hz]
  obtain ⟨e00, e01, e10, e11, e20, e21, e30, e31, e40, e41, e51, e5⟩ := idx_facts t
  funext j
  obtain ⟨r, q, rfl⟩ : ∃ (r : Fin 10000) (q : Fin 64), j = ix2 r q := ⟨j 0, j 1, eq_ix2 j⟩
  have hr : r.val < 10000 := r.isLt
  have hq : q.val < 64 := q.isLt
  show k1_pay1 (F := Ideal) (iblk1 V c 0 t) (iblk1 V c 1 t) (iblk1 V c 2 t) (iblk1 V c 4 t) (iblk1 V c 3 t) (ix2 r q)
    = Sage.out (M := 100000) (C := 64) (K := 128) (V c main_v36) (V c main_v24) (V c main_arg6) (V c main_arg8) (V c main_v37)
        (((cfg1.win 5).blk t).view.emb (ix2 r q))
  have hemb : ((cfg1.win 5).blk t).view.emb (ix2 r q)
      = ix2 (⟨win1_5.index t (0 : Fin 2) * 10000 + r.val, by omega⟩ : Fin 100000) q := by
    funext a; apply Fin.ext
    match a with
    | ⟨0, _⟩ => show win1_5.index t (0 : Fin 2) * 10000 + 1 * r.val = win1_5.index t (0 : Fin 2) * 10000 + r.val; omega
    | ⟨1, _⟩ => show win1_5.index t (1 : Fin 2) * 64 + 1 * q.val = q.val; omega
  rw [hemb, Sage.out_ix2]
  refine (Payload.pay1_apply (iblk1 V c 0 t) (iblk1 V c 1 t) (iblk1 V c 2 t) (iblk1 V c 4 t) (iblk1 V c 3 t) r q).trans ?_

  refine Sage.lin_congr (V c main_v36) (V c main_v24) (iblk1 V c 0 t) (iblk1 V c 1 t) (V c main_arg6) (V c main_arg8) (iblk1 V c 2 t) (iblk1 V c 4 t)
    (V c main_v37) (iblk1 V c 3 t) r _ q ?_ ?_ ?_ ?_ ?_
  · intro k
    have hk : k.val < 128 := k.isLt
    show V c main_v36 (((cfg1.win 0).blk t).view.emb (ix2 r k)) = V c main_v36 _
    refine congrArg (V c main_v36) (funext fun a => Fin.ext ?_)
    match a with
    | ⟨0, _⟩ => show win1_0.index t (0 : Fin 2) * 10000 + 1 * r.val = win1_5.index t (0 : Fin 2) * 10000 + r.val; omega
    | ⟨1, _⟩ => show win1_0.index t (1 : Fin 2) * 128 + 1 * k.val = k.val; omega
  · intro k
    have hk : k.val < 128 := k.isLt
    show V c main_v24 (((cfg1.win 1).blk t).view.emb (ix2 r k)) = V c main_v24 _
    refine congrArg (V c main_v24) (funext fun a => Fin.ext ?_)
    match a with
    | ⟨0, _⟩ => show win1_1.index t (0 : Fin 2) * 10000 + 1 * r.val = win1_5.index t (0 : Fin 2) * 10000 + r.val; omega
    | ⟨1, _⟩ => show win1_1.index t (1 : Fin 2) * 128 + 1 * k.val = k.val; omega
  · intro k
    have hk : k.val < 128 := k.isLt
    show V c main_arg6 (((cfg1.win 2).blk t).view.emb (ix2 q k)) = V c main_arg6 _
    refine congrArg (V c main_arg6) (funext fun a => Fin.ext ?_)
    match a with
    | ⟨0, _⟩ => show win1_2.index t (0 : Fin 2) * 64 + 1 * q.val = q.val; omega
    | ⟨1, _⟩ => show win1_2.index t (1 : Fin 2) * 128 + 1 * k.val = k.val; omega
  · intro k
    have hk : k.val < 128 := k.isLt
    show V c main_arg8 (((cfg1.win 4).blk t).view.emb (ix2 q k)) = V c main_arg8 _
    refine congrArg (V c main_arg8) (funext fun a => Fin.ext ?_)
    match a with
    | ⟨0, _⟩ => show win1_4.index t (0 : Fin 2) * 64 + 1 * q.val = q.val; omega
    | ⟨1, _⟩ => show win1_4.index t (1 : Fin 2) * 128 + 1 * k.val = k.val; omega
  · show V c main_v37 (((cfg1.win 3).blk t).view.emb (ix2 (0 : Fin 1) q)) = V c main_v37 _
    refine congrArg (V c main_v37) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- An index of the result is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v38).slice (win1_5.rect t)).set ↔ _
  rw [View.set_slice_whole, Rect.mem_set_unit]
  exact Iff.rfl

/-- The ten row blocks tile the result: row p is in the block of the point whose row-block index is p / 10000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The result array after the region: `Sage.out` of the arrays the region found. -/
theorem final (c : Dev nD) : (dat1 V c).arrAt 5 cfg1.N
    = Sage.out (M := 100000) (C := 64) (K := 128) (V c main_v36) (V c main_v24) (V c main_arg6) (V c main_arg8) (V c main_v37) :=
  (dat1 V c).arrAt_eq_of_cover 5 _ (fun t _ => flushed_eq V c t) cover

end Cert.KernelIdeal.Region1

end
-- ==== Proof.Region2.lean ====
/-
  Region 2 (the decode): the one-column array it leaves holds, at row p, the score of pair p — the inner product
  of row p of the two gathered arrays, summed from zero — whatever those two arrays are.

  The grid has ten points; point t stages rows 10000·t … 10000·t + 9999 of both operands and of the result
  column. The body stores, at row r of its block, the sum over k of the products of the two blocks' entries
  (r, k), which is the inner product of row 10000·t + r of the arrays; adding it to zero changes nothing. The
  ten blocks tile the column.
-/
import proofs.«100602_j10694468567086_1_alg».proof.Proof.Gen.KernelIdeal.Frame
import proofs.«100602_j10694468567086_1_alg».proof.Proof.Payload
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: both operands move with the result along the rows, the
    column-block indices are zero, and the result's row-block index is at most 9. -/
theorem idx_facts : ∀ t : Fin cfg2.N,
    win2_0.index t (0 : Fin 2) = win2_2.index t (0 : Fin 2) ∧ win2_0.index t (1 : Fin 2) = 0
    ∧ win2_1.index t (0 : Fin 2) = win2_2.index t (0 : Fin 2) ∧ win2_1.index t (1 : Fin 2) = 0
    ∧ win2_2.index t (1 : Fin 2) = 0 ∧ win2_2.index t (0 : Fin 2) ≤ 9 :=
  (by decide +kernel : ∀ t : Fin grid2.N, _)

/-- Every row block of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the column of scores of the arrays the region finds. -/
theorem flushed_eq (c : Dev nD) (t : Fin cfg2.N) :
    (dat2 V c).flushed 2 t = ((cfg2.win 2).blk t).view.read (Elt Ideal)
      (Sage.scoreCol (M := 100000) (K := 64) (V c main_v49) (V c main_v56)) := by
  show (cfg2.win 2).cut (grid2.coords t) ((dat2 V c).after 2 t) = _
  rw [after2_2]
  unfold out2_2
  rw [View.canon_unit_zero hz]
  simp only [View.ld_unit_zero (S := S10000x64) hz]
  obtain ⟨e00, e01, e10, e11, e21, e2⟩ := idx_facts t
  funext j
  obtain ⟨r, u, rfl⟩ : ∃ (r : Fin 10000) (u : Fin 1), j = ix2 r u := ⟨j 0, j 1, eq_ix2 j⟩
  have hr : r.val < 10000 := r.isLt
  have hu : u.val < 1 := u.isLt
  show k2_pay1 (F := Ideal) (iblk2 V c 0 t) (iblk2 V c 1 t) (ix2 r u)
    = Sage.scoreCol (M := 100000) (K := 64) (V c main_v49) (V c main_v56) (((cfg2.win 2).blk t).view.emb (ix2 r u))
  have hemb : ((cfg2.win 2).blk t).view.emb (ix2 r u)
      = ix2 (⟨win2_2.index t (0 : Fin 2) * 10000 + r.val, by omega⟩ : Fin 100000) (0 : Fin 1) := by
    funext a; apply Fin.ext
    match a with
    | ⟨0, _⟩ => show win2_2.index t (0 : Fin 2) * 10000 + 1 * r.val = win2_2.index t (0 : Fin 2) * 10000 + r.val; omega
    | ⟨1, _⟩ => show win2_2.index t (1 : Fin 2) * 1 + 1 * u.val = 0; omega
  rw [hemb, Sage.scoreCol_ix2, Sage.score_eq]
  refine (Payload.pay2_apply (iblk2 V c 0 t) (iblk2 V c 1 t) r u).trans ?_
  refine Sage.dots_congr_rows (V c main_v49) (V c main_v56) (iblk2 V c 0 t) (iblk2 V c 1 t) r _ ?_ ?_
  · intro k
    have hk : k.val < 64 := k.isLt
    show V c main_v49 (((cfg2.win 0).blk t).view.emb (ix2 r k)) = V c main_v49 _
    refine congrArg (V c main_v49) (funext fun a => Fin.ext ?_)
    match a with
    | ⟨0, _⟩ => show win2_0.index t (0 : Fin 2) * 10000 + 1 * r.val = win2_2.index t (0 : Fin 2) * 10000 + r.val; omega
    | ⟨1, _⟩ => show win2_0.index t (1 : Fin 2) * 64 + 1 * k.val = k.val; omega
  · intro k
    have hk : k.val < 64 := k.isLt
    show V c main_v56 (((cfg2.win 1).blk t).view.emb (ix2 r k)) = V c main_v56 _
    refine congrArg (V c main_v56) (funext fun a => Fin.ext ?_)
    match a with
    | ⟨0, _⟩ => show win2_1.index t (0 : Fin 2) * 10000 + 1 * r.val = win2_2.index t (0 : Fin 2) * 10000 + r.val; omega
    | ⟨1, _⟩ => show win2_1.index t (1 : Fin 2) * 64 + 1 * k.val = k.val; omega

/-- An index of the result is in point t's block iff each coordinate is in the block's range on its axis. -/
theorem mem_blk (t : Fin cfg2.N) (i : S100000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v57).slice (win2_2.rect t)).set ↔ _
  rw [View.set_slice_whole, Rect.mem_set_unit]
  exact Iff.rfl

/-- The ten row blocks tile the column. -/
theorem cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- The result column after the region: the scores of the two arrays the region found. -/
theorem final (c : Dev nD) : (dat2 V c).arrAt 2 cfg2.N
    = Sage.scoreCol (M := 100000) (K := 64) (V c main_v49) (V c main_v56) :=
  (dat2 V c).arrAt_eq_of_cover 2 _ (fun t _ => flushed_eq V c t) cover

end Cert.KernelIdeal.Region2

end
-- ==== Proof.RefStages.lean ====
/-
  The reference, stage by stage, is the same three functions.

  The reference computes each layer as two whole-array products with a transposed weight matrix, the bias spread
  over the rows in between, and (first layer) a maximum with zero; its decode multiplies the two gathered arrays
  entry by entry and sums each row from zero. Read at an entry — a product with a transposed matrix as the sum
  over k of A p k · W q k, a spread row as its entry q, a row sum as the initial value plus the sum over k —
  these are `Sage.hidden`, `Sage.out` and `Sage.scores` of the stages they are applied to.
-/
import proofs.«100602_j10694468567086_1_alg».proof.Proof.Gen.ReferenceIdeal.Read
import proofs.«100602_j10694468567086_1_alg».proof.Proof.Spec
import Idealize.ShloMosaic.Lib.ValueIdx

noncomputable section

namespace Cert.ReferenceIdeal.Stages

open Idealize.ShloMosaic Idealize.ShloMosaic.ValueIdx Cert.ReferenceIdeal Cert.ReferenceIdeal.Read

/-- The first layer's result is `Sage.hidden` of the first mean, the features, the two weight matrices and the
    bias row. -/
theorem hidden_ref (x0 : (⟨S100000x128, .f32⟩ : BufTy).Contents (Elt Ideal)) (x1 : (⟨S2x640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v31 (F := Ideal) x0 x1 x3 x4 x5
      = Sage.hidden (M := 100000) (C := 128) (K := 128) (val_main_v22 (F := Ideal) x0 x1) x0 x3 x5 (val_main_v25 (F := Ideal) x4) := by
  funext i
  obtain ⟨p, q, rfl⟩ : ∃ (p : Fin 100000) (q : Fin 128), i = ix2 p q := ⟨i 0, i 1, eq_ix2 i⟩
  have e1 : ∀ k : Fin 128, lidx_main_v24 (ix2 p q) k = ix2 p k := fun k => funext fun a => Fin.ext (by match a with | ⟨0, _⟩ => rfl | ⟨1, _⟩ => rfl)
  have e2 : ∀ k : Fin 128, idx_main_v23 (ridx_main_v24 (ix2 p q) k) = ix2 q k := fun k => funext fun a => Fin.ext (by match a with | ⟨0, _⟩ => rfl | ⟨1, _⟩ => rfl)
  have e3 : idx_main_v26 (ix2 p q) = ix2 (0 : Fin 1) q := funext fun a => Fin.ext (by match a with | ⟨0, _⟩ => rfl | ⟨1, _⟩ => rfl)
  have e4 : ∀ k : Fin 128, lidx_main_v29 (ix2 p q) k = ix2 p k := fun k => funext fun a => Fin.ext (by match a with | ⟨0, _⟩ => rfl | ⟨1, _⟩ => rfl)
  have e5 : ∀ k : Fin 128, idx_main_v28 (ridx_main_v29 (ix2 p q) k) = ix2 q k := fun k => funext fun a => Fin.ext (by match a with | ⟨0, _⟩ => rfl | ⟨1, _⟩ => rfl)
  rw [Sage.hidden_ix2, val_main_v31_apply, val_main_v30_apply, val_main_v27_apply, val_main_v24_apply, val_main_v26_apply,
    val_main_v29_apply, val_main_call0_v0_apply, val_main_call0_cst_apply]
  simp only [val_main_v23_apply, val_main_v28_apply, e1, e2, e3, e4, e5]
  rfl

/-- The second layer's result is `Sage.out` of the second mean, the first layer's result, the two weight
    matrices and the bias row. -/
theorem out_ref (x0 : (⟨S100000x128, .f32⟩ : BufTy).Contents (Elt Ideal)) (x1 : (⟨S2x640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S64x128, .f32⟩ : BufTy).Contents (Elt Ideal))
    (x7 : (⟨S64, .f32⟩ : BufTy).Contents (Elt Ideal)) (x8 : (⟨S64x128, .f32⟩ : BufTy).Contents (Elt Ideal)) :
    val_main_v58 (F := Ideal) x0 x1 x3 x4 x5 x6 x7 x8
      = Sage.out (M := 100000) (C := 64) (K := 128) (val_main_v50 (F := Ideal) x0 x1 x3 x4 x5) (val_main_v31 (F := Ideal) x0 x1 x3 x4 x5)
          x6 x8 (val_main_v53 (F := Ideal) x7) := by
  funext i
  obtain ⟨p, q, rfl⟩ : ∃ (p : Fin 100000) (q : Fin 64), i = ix2 p q := ⟨i 0, i 1, eq_ix2 i⟩
  have e1 : ∀ k : Fin 128, lidx_main_v52 (ix2 p q) k = ix2 p k := fun k => funext fun a => Fin.ext (by match a with | ⟨0, _⟩ => rfl | ⟨1, _⟩ => rfl)
  have e2 : ∀ k : Fin 128, idx_main_v51 (ridx_main_v52 (ix2 p q) k) = ix2 q k := fun k => funext fun a => Fin.ext (by match a with | ⟨0, _⟩ => rfl | ⟨1, _⟩ => rfl)
  have e3 : idx_main_v54 (ix2 p q) = ix2 (0 : Fin 1) q := funext fun a => Fin.ext (by match a with | ⟨0, _⟩ => rfl | ⟨1, _⟩ => rfl)
  have e4 : ∀ k : Fin 128, lidx_main_v57 (ix2 p q) k = ix2 p k := fun k => funext fun a => Fin.ext (by match a with | ⟨0, _⟩ => rfl | ⟨1, _⟩ => rfl)
  have e5 : ∀ k : Fin 128, idx_main_v56 (ridx_main_v57 (ix2 p q) k) = ix2 q k := fun k => funext fun a => Fin.ext (by match a with | ⟨0, _⟩ => rfl | ⟨1, _⟩ => rfl)
  rw [Sage.out_ix2, val_main_v58_apply, val_main_v55_apply, val_main_v52_apply, val_main_v54_apply, val_main_v57_apply]
  simp only [val_main_v51_apply, val_main_v56_apply, e1, e2, e3, e4, e5]
  rfl

/-- The reference's result is the vector of scores of its two gathered arrays. -/
theorem scores_ref (x0 : (⟨S100000x128, .f32⟩ : BufTy).Contents (Elt Ideal)) (x1 : (⟨S2x640000, .i32⟩ : BufTy).Contents (Elt Ideal))
    (x2 : (⟨S2x100000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S64x128, .f32⟩ : BufTy).Contents (Elt Ideal))
    (x7 : (⟨S64, .f32⟩ : BufTy).Contents (Elt Ideal)) (x8 : (⟨S64x128, .f32⟩ : BufTy).Contents (Elt Ideal)) :
    val_main_v78 (F := Ideal) x0 x1 x2 x3 x4 x5 x6 x7 x8
      = Sage.scores (M := 100000) (K := 64) (val_main_v67 (F := Ideal) x0 x1 x2 x3 x4 x5 x6 x7 x8)
          (val_main_v76 (F := Ideal) x0 x1 x2 x3 x4 x5 x6 x7 x8) := by
  funext i
  obtain ⟨p, rfl⟩ : ∃ p : Fin 100000, i = ix1 p := ⟨i 0, eq_ix1 i⟩
  have e1 : ∀ k : Fin 64, idx_main_v78 (ix1 p) k = ix2 p k := fun k => funext fun a => Fin.ext (by match a with | ⟨0, _⟩ => rfl | ⟨1, _⟩ => rfl)
  rw [Sage.scores_ix1, val_main_v78_apply, val_main_cst_14_apply]
  simp only [val_main_v77_apply, e1]
  rfl

end Cert.ReferenceIdeal.Stages

end
-- ==== Proof.LibLayerLayout.lean ====
/-
  Two layout facts about stacked weight matrices and a bias row, for any element type and any sizes.

  * `stack_transpose_take`: from a stack of `m` matrices of shape [a, b], transposing every matrix of the stack and then
    taking matrix `r` gives the transpose of matrix `r`: entry (j, i) of either is entry (r, i, j) of the stack.
  * `row_of_vector`: a vector of length `a` placed as the single row of a [1, a] matrix by a broadcast along the new
    leading axis is the same matrix as the vector reshaped to [1, a].
-/
import Idealize.ShloMosaic.Lib.ValueIdx
import Idealize.ShloMosaic.Lib.ValueLayout
import Idealize.ShloMosaic.Lib.Pipeline.Value

noncomputable section

namespace Idealize.ShloMosaic.LayerLayout

open Idealize.ShloMosaic Idealize.ShloMosaic.ValueIdx

variable {α : Type}

/-- Matrix `r` of a stack, read at (0, i, j) of the one-matrix slice: entry (r, i, j) of the stack. -/
theorem take_apply {m a b : ℕ} (W : (⟨3, ![m, a, b]⟩ : Shape).Idx → α) (r : ℕ)
    (hs : (⟨3, ![m, a, b]⟩ : Shape).Slices ![r, 0, 0] ⟨3, ![1, a, b]⟩) (hr : r < m) (u : Fin 1) (i : Fin a) (j : Fin b) :
    extractStridedSlice ⟨3, ![1, a, b]⟩ ![r, 0, 0] W hs (ix3 u i j) = W (ix3 ⟨r, hr⟩ i j) :=
  extractStridedSlice_apply ![r, 0, 0] W hs (ix3 u i j) (ix3 ⟨r, hr⟩ i j) fun ax => by
    match ax with
    | ⟨0, _⟩ => show r = r + u.val; omega
    | ⟨1, _⟩ => show i.val = 0 + i.val; omega
    | ⟨2, _⟩ => show j.val = 0 + j.val; omega

/-- Transposing every matrix of a stack and then taking matrix `r` is taking matrix `r` and transposing it. -/
theorem stack_transpose_take {m a b : ℕ} (W : (⟨3, ![m, a, b]⟩ : Shape).Idx → α) (r : ℕ) (hr : r < m)
    (ht : (⟨3, ![m, a, b]⟩ : Shape).Transposes [0, 2, 1] ⟨3, ![m, b, a]⟩)
    (hs : (⟨3, ![m, b, a]⟩ : Shape).Slices ![r, 0, 0] ⟨3, ![1, b, a]⟩)
    (hc : (⟨3, ![1, b, a]⟩ : Shape).ShapeCasts ⟨2, ![b, a]⟩)
    (hs' : (⟨3, ![m, a, b]⟩ : Shape).Slices ![r, 0, 0] ⟨3, ![1, a, b]⟩)
    (hc' : (⟨3, ![1, a, b]⟩ : Shape).ShapeCasts ⟨2, ![a, b]⟩)
    (ht' : (⟨2, ![a, b]⟩ : Shape).Transposes [1, 0] ⟨2, ![b, a]⟩) :
    shapeCast ⟨2, ![b, a]⟩ (extractStridedSlice ⟨3, ![1, b, a]⟩ ![r, 0, 0] (transpose ⟨3, ![m, b, a]⟩ [0, 2, 1] W ht) hs) hc
      = transpose ⟨2, ![b, a]⟩ [1, 0] (shapeCast ⟨2, ![a, b]⟩ (extractStridedSlice ⟨3, ![1, a, b]⟩ ![r, 0, 0] W hs') hc') ht' := by
  funext y
  obtain ⟨j, i, rfl⟩ : ∃ (j : Fin b) (i : Fin a), y = ix2 j i := ⟨y 0, y 1, eq_ix2 y⟩
  rw [shapeCast_1ab_ab_apply, take_apply _ r hs hr, transpose_ix3_021_apply,
    transpose_ix2_apply, shapeCast_1ab_ab_apply, take_apply _ r hs' hr]

/-- A vector as the one row of a matrix: by a broadcast along the new leading axis, or by a reshape. -/
theorem row_of_vector {a : ℕ} (x : (⟨1, ![a]⟩ : Shape).Idx → α)
    (hb : (⟨1, ![a]⟩ : Shape).BroadcastsInDim ⟨2, ![1, a]⟩ ![1])
    (hc : (⟨1, ![a]⟩ : Shape).ShapeCasts ⟨2, ![1, a]⟩) :
    broadcastInDim ⟨2, ![1, a]⟩ ![1] hb x = shapeCast ⟨2, ![1, a]⟩ x hc := by
  funext y
  obtain ⟨u, i, rfl⟩ : ∃ (u : Fin 1) (i : Fin a), y = ix2 u i := ⟨y 0, y 1, eq_ix2 y⟩
  rw [shapeCast_a_1a_apply]
  refine broadcastInDim_apply ![1] hb x (ix2 u i) (ix1 i) fun ax => ?_
  match ax with
  | ⟨0, _⟩ =>
    show i.val = if a = 1 then 0 else i.val
    split
    · have := i.isLt; omega
    · rfl

end Idealize.ShloMosaic.LayerLayout

end
-- ==== Proof.Boundary.lean ====
/-
  The idealized kernel's result, followed through the seven segments, is the reference's last stage.

  Each stretch of host operations is read at an arbitrary valuation of the buffers, so that the fold of the
  earlier segments never has to be opened: a buffer the stretch does not write keeps its contents, and a buffer
  it writes holds the composed operations of the buffers it reads. The kernel's host operations are the
  reference's own — the same slices of the edge list, the same wrapped indices, gathers, scatter-additions,
  counts and quotients — so each such composed term is, as written, a stage of the reference applied to what
  the stretch reads; only the bias row differs in spelling (a reshape here, a broadcast there, of the same
  vector). Between the stretches the three region lemmas say what each pipelined region leaves. Going through
  the boundaries in order: the first mean, the first layer, the second mean, the second layer, the two gathered
  arrays, the column of scores, and its reshape to a vector — the reference's result.
-/
import proofs.«100602_j10694468567086_1_alg».proof.Proof.Gen.KernelIdeal.Frame
import proofs.«100602_j10694468567086_1_alg».proof.Proof.Gen.ReferenceIdeal.Read
import proofs.«100602_j10694468567086_1_alg».proof.Proof.Region0
import proofs.«100602_j10694468567086_1_alg».proof.Proof.Region1
import proofs.«100602_j10694468567086_1_alg».proof.Proof.Region2
import proofs.«100602_j10694468567086_1_alg».proof.Proof.RefStages
import proofs.«100602_j10694468567086_1_alg».proof.Proof.LibLayerLayout
import proofs.«100602_j10694468567086_1_alg».proof.Proof.LibColumn
import Idealize.ShloMosaic.Lib.StableHlo.Run

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read

/-! ## Equal operands give equal layers -/

theorem hidden_congr {M C K : Nat} {a a' x x' : (⟨2, ![M, K]⟩ : Shape).Idx → EReal} {l l' r r' : (⟨2, ![C, K]⟩ : Shape).Idx → EReal}
    {b b' : (⟨2, ![1, C]⟩ : Shape).Idx → EReal} (h1 : a = a') (h2 : x = x') (h3 : l = l') (h4 : r = r') (h5 : b = b') :
    Sage.hidden a x l r b = Sage.hidden a' x' l' r' b' := by rw [h1, h2, h3, h4, h5]

theorem out_congr {M C K : Nat} {a a' x x' : (⟨2, ![M, K]⟩ : Shape).Idx → EReal} {l l' r r' : (⟨2, ![C, K]⟩ : Shape).Idx → EReal}
    {b b' : (⟨2, ![1, C]⟩ : Shape).Idx → EReal} (h1 : a = a') (h2 : x = x') (h3 : l = l') (h4 : r = r') (h5 : b = b') :
    Sage.out a x l r b = Sage.out a' x' l' r' b' := by rw [h1, h2, h3, h4, h5]

theorem scoreCol_congr {M K : Nat} {u u' v v' : (⟨2, ![M, K]⟩ : Shape).Idx → EReal} (h1 : u = u') (h2 : v = v') :
    Sage.scoreCol u v = Sage.scoreCol u' v' := by rw [h1, h2]

/-- The column of scores reshaped to a vector is the vector of scores. -/
theorem scoreCol_reshape {M K : Nat} (u v : (⟨2, ![M, K]⟩ : Shape).Idx → EReal)
    (h : (⟨2, ![M, 1]⟩ : Shape).ShapeCasts ⟨1, ![M]⟩) :
    shapeCast ⟨1, ![M]⟩ (Sage.scoreCol u v) h = Sage.scores u v := by
  funext i
  obtain ⟨p, rfl⟩ : ∃ p : Fin M, i = ix1 p := ⟨i 0, eq_ix1 i⟩
  rw [Cert.Lib.Column.shapeCast_a1_a_apply]
  rfl

/-! ## The host stretches, read at an arbitrary valuation -/

section Host

variable (W : Valuation τ sig (Elt Ideal))

/-! ### Before the first region -/

theorem h0_keep_main_arg0 : StableHlo.after (hostOps0 (F := Ideal)) W (Proc.devRef .tc main_arg0) = W (Proc.devRef .tc main_arg0) := by
  dsimp only [hostOps0]; after_results_simp
theorem h0_keep_main_arg2 : StableHlo.after (hostOps0 (F := Ideal)) W (Proc.devRef .tc main_arg2) = W (Proc.devRef .tc main_arg2) := by
  dsimp only [hostOps0]; after_results_simp
theorem h0_keep_main_arg3 : StableHlo.after (hostOps0 (F := Ideal)) W (Proc.devRef .tc main_arg3) = W (Proc.devRef .tc main_arg3) := by
  dsimp only [hostOps0]; after_results_simp
theorem h0_keep_main_arg5 : StableHlo.after (hostOps0 (F := Ideal)) W (Proc.devRef .tc main_arg5) = W (Proc.devRef .tc main_arg5) := by
  dsimp only [hostOps0]; after_results_simp
theorem h0_keep_main_arg6 : StableHlo.after (hostOps0 (F := Ideal)) W (Proc.devRef .tc main_arg6) = W (Proc.devRef .tc main_arg6) := by
  dsimp only [hostOps0]; after_results_simp
theorem h0_keep_main_arg7 : StableHlo.after (hostOps0 (F := Ideal)) W (Proc.devRef .tc main_arg7) = W (Proc.devRef .tc main_arg7) := by
  dsimp only [hostOps0]; after_results_simp
theorem h0_keep_main_arg8 : StableHlo.after (hostOps0 (F := Ideal)) W (Proc.devRef .tc main_arg8) = W (Proc.devRef .tc main_arg8) := by
  dsimp only [hostOps0]; after_results_simp

/-- The first mean: the reference's stage of the features and the edge list. -/
theorem h0_v22 : StableHlo.after (hostOps0 (F := Ideal)) W (Proc.devRef .tc main_v22)
    = val_main_v22 (F := Ideal) (W (Proc.devRef .tc main_arg0)) (W (Proc.devRef .tc main_arg1)) := by
  dsimp only [hostOps0]; after_results_simp <;> rfl

/-- The sources, the targets and the clamped in-degree column are the reference's stages of the edge list. -/
theorem h0_v1 : StableHlo.after (hostOps0 (F := Ideal)) W (Proc.devRef .tc main_v1) = val_main_v1 (F := Ideal) (W (Proc.devRef .tc main_arg1)) := by
  dsimp only [hostOps0]; after_results_simp <;> rfl
theorem h0_v3 : StableHlo.after (hostOps0 (F := Ideal)) W (Proc.devRef .tc main_v3) = val_main_v3 (F := Ideal) (W (Proc.devRef .tc main_arg1)) := by
  dsimp only [hostOps0]; after_results_simp <;> rfl
theorem h0_v10 : StableHlo.after (hostOps0 (F := Ideal)) W (Proc.devRef .tc main_v10) = val_main_v20 (F := Ideal) (W (Proc.devRef .tc main_arg1)) := by
  dsimp only [hostOps0]; after_results_simp <;> rfl

/-- The first bias as a row: a reshape here, the reference's broadcast of the same vector. -/
theorem h0_v23 : StableHlo.after (hostOps0 (F := Ideal)) W (Proc.devRef .tc main_v23) = val_main_v25 (F := Ideal) (W (Proc.devRef .tc main_arg4)) := by
  dsimp only [hostOps0]; after_results_simp
  exact (Idealize.ShloMosaic.LayerLayout.row_of_vector _ _ _).symm

/-! ### Between the first and the second region -/

theorem h1_keep_main_arg2 : StableHlo.after (hostOps1 (F := Ideal)) W (Proc.devRef .tc main_arg2) = W (Proc.devRef .tc main_arg2) := by
  dsimp only [hostOps1]; after_results_simp
theorem h1_keep_main_arg6 : StableHlo.after (hostOps1 (F := Ideal)) W (Proc.devRef .tc main_arg6) = W (Proc.devRef .tc main_arg6) := by
  dsimp only [hostOps1]; after_results_simp
theorem h1_keep_main_arg8 : StableHlo.after (hostOps1 (F := Ideal)) W (Proc.devRef .tc main_arg8) = W (Proc.devRef .tc main_arg8) := by
  dsimp only [hostOps1]; after_results_simp
theorem h1_keep_main_v24 : StableHlo.after (hostOps1 (F := Ideal)) W (Proc.devRef .tc main_v24) = W (Proc.devRef .tc main_v24) := by
  dsimp only [hostOps1]; after_results_simp

/-- The second mean: when the stretch finds the first layer's result, the sources, the targets and the in-degree
    column at the reference's stages, it leaves the reference's second mean. -/
theorem h1_v36 (x0 : (⟨Cert.ReferenceIdeal.S100000x128, .f32⟩ : BufTy).Contents (Elt Ideal))
    (x1 : (⟨Cert.ReferenceIdeal.S2x640000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (e24 : W (Proc.devRef .tc main_v24) = val_main_v31 (F := Ideal) x0 x1 x3 x4 x5)
    (e1 : W (Proc.devRef .tc main_v1) = val_main_v1 (F := Ideal) x1) (e3 : W (Proc.devRef .tc main_v3) = val_main_v3 (F := Ideal) x1)
    (e10 : W (Proc.devRef .tc main_v10) = val_main_v20 (F := Ideal) x1) :
    StableHlo.after (hostOps1 (F := Ideal)) W (Proc.devRef .tc main_v36) = val_main_v50 (F := Ideal) x0 x1 x3 x4 x5 := by
  dsimp only [hostOps1]; after_results_simp
  rw [e24, e1, e3, e10]
  rfl

/-- The second bias as a row. -/
theorem h1_v37 : StableHlo.after (hostOps1 (F := Ideal)) W (Proc.devRef .tc main_v37) = val_main_v53 (F := Ideal) (W (Proc.devRef .tc main_arg7)) := by
  dsimp only [hostOps1]; after_results_simp
  exact (Idealize.ShloMosaic.LayerLayout.row_of_vector _ _ _).symm

/-! ### Between the second and the third region -/

/-- The two gathered arrays: when the stretch finds the second layer's result at the reference's stage, it leaves
    the reference's two gathers of it at the pair list's wrapped indices. -/
theorem h2_v49 (x0 : (⟨Cert.ReferenceIdeal.S100000x128, .f32⟩ : BufTy).Contents (Elt Ideal))
    (x1 : (⟨Cert.ReferenceIdeal.S2x640000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S64x128, .f32⟩ : BufTy).Contents (Elt Ideal))
    (x7 : (⟨Cert.ReferenceIdeal.S64, .f32⟩ : BufTy).Contents (Elt Ideal))
    (x8 : (⟨Cert.ReferenceIdeal.S64x128, .f32⟩ : BufTy).Contents (Elt Ideal))
    (e38 : W (Proc.devRef .tc main_v38) = val_main_v58 (F := Ideal) x0 x1 x3 x4 x5 x6 x7 x8) :
    StableHlo.after (hostOps2 (F := Ideal)) W (Proc.devRef .tc main_v49)
      = val_main_v67 (F := Ideal) x0 x1 (W (Proc.devRef .tc main_arg2)) x3 x4 x5 x6 x7 x8 := by
  dsimp only [hostOps2]; after_results_simp
  rw [e38]
  rfl
theorem h2_v56 (x0 : (⟨Cert.ReferenceIdeal.S100000x128, .f32⟩ : BufTy).Contents (Elt Ideal))
    (x1 : (⟨Cert.ReferenceIdeal.S2x640000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S64x128, .f32⟩ : BufTy).Contents (Elt Ideal))
    (x7 : (⟨Cert.ReferenceIdeal.S64, .f32⟩ : BufTy).Contents (Elt Ideal))
    (x8 : (⟨Cert.ReferenceIdeal.S64x128, .f32⟩ : BufTy).Contents (Elt Ideal))
    (e38 : W (Proc.devRef .tc main_v38) = val_main_v58 (F := Ideal) x0 x1 x3 x4 x5 x6 x7 x8) :
    StableHlo.after (hostOps2 (F := Ideal)) W (Proc.devRef .tc main_v56)
      = val_main_v76 (F := Ideal) x0 x1 (W (Proc.devRef .tc main_arg2)) x3 x4 x5 x6 x7 x8 := by
  dsimp only [hostOps2]; after_results_simp
  rw [e38]
  rfl

/-! ### After the third region -/

/-- The result is the reshape of the column the third region leaves. -/
theorem h3_v58 : StableHlo.after (hostOps3 (F := Ideal)) W (Proc.devRef .tc main_v58)
    = shapeCast S100000 (W (Proc.devRef .tc main_v57)) shapeCasts_S100000x1_S100000 := by
  dsimp only [hostOps3]; after_results_simp <;> rfl

end Host

/-! ## Through the boundaries -/

variable (m : (ℓ : Loc nD τ sig) → Buf (Elt Ideal) ℓ) (ρ : Dev nD → PrngReg) (c : Dev nD)

/-- An argument array a host stretch and a region leave alone is, at the first region's exit, as launched. -/
theorem W2_main_arg2 : W2 m ρ c (Proc.devRef .tc main_arg2) = (m ((c : Thread nD τ).loc main_arg2)) :=
  (W2_of_ne m ρ c main_arg2 (by decide)).trans (h0_keep_main_arg2 (W0 m ρ c))
theorem W2_main_arg6 : W2 m ρ c (Proc.devRef .tc main_arg6) = (m ((c : Thread nD τ).loc main_arg6)) :=
  (W2_of_ne m ρ c main_arg6 (by decide)).trans (h0_keep_main_arg6 (W0 m ρ c))
theorem W2_main_arg7 : W2 m ρ c (Proc.devRef .tc main_arg7) = (m ((c : Thread nD τ).loc main_arg7)) :=
  (W2_of_ne m ρ c main_arg7 (by decide)).trans (h0_keep_main_arg7 (W0 m ρ c))
theorem W2_main_arg8 : W2 m ρ c (Proc.devRef .tc main_arg8) = (m ((c : Thread nD τ).loc main_arg8)) :=
  (W2_of_ne m ρ c main_arg8 (by decide)).trans (h0_keep_main_arg8 (W0 m ρ c))

/-- The first layer: the first region's result array is the reference's first-layer stage. -/
theorem layer1 : W2 m ρ c (Proc.devRef .tc main_v24)
    = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  refine (Region0.final (V1 m ρ) c).trans ?_
  refine (hidden_congr ?_ ?_ ?_ ?_ ?_).trans (Cert.ReferenceIdeal.Stages.hidden_ref _ _ _ _ _).symm
  · exact h0_v22 (W0 m ρ c)
  · exact h0_keep_main_arg0 (W0 m ρ c)
  · exact h0_keep_main_arg3 (W0 m ρ c)
  · exact h0_keep_main_arg5 (W0 m ρ c)
  · exact h0_v23 (W0 m ρ c)

/-- The second layer: the second region's result array is the reference's second-layer stage. -/
theorem layer2 : W4 m ρ c (Proc.devRef .tc main_v38)
    = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  refine (Region1.final (V3 m ρ) c).trans ?_
  refine (out_congr ?_ ?_ ?_ ?_ ?_).trans (Cert.ReferenceIdeal.Stages.out_ref _ _ _ _ _ _ _ _).symm
  · exact h1_v36 (W2 m ρ c) _ _ _ _ _ (layer1 m ρ c)
      ((W2_of_ne m ρ c main_v1 (by decide)).trans (h0_v1 (W0 m ρ c)))
      ((W2_of_ne m ρ c main_v3 (by decide)).trans (h0_v3 (W0 m ρ c)))
      ((W2_of_ne m ρ c main_v10 (by decide)).trans (h0_v10 (W0 m ρ c)))
  · exact (h1_keep_main_v24 (W2 m ρ c)).trans (layer1 m ρ c)
  · exact (h1_keep_main_arg6 (W2 m ρ c)).trans (W2_main_arg6 m ρ c)
  · exact (h1_keep_main_arg8 (W2 m ρ c)).trans (W2_main_arg8 m ρ c)
  · exact (h1_v37 (W2 m ρ c)).trans (congrArg (val_main_v53 (F := Ideal)) (W2_main_arg7 m ρ c))

/-- The pair list at the second region's exit is as launched. -/
theorem W4_main_arg2 : W4 m ρ c (Proc.devRef .tc main_arg2) = (m ((c : Thread nD τ).loc main_arg2)) :=
  (W4_of_ne m ρ c main_arg2 (by decide)).trans ((h1_keep_main_arg2 (W2 m ρ c)).trans (W2_main_arg2 m ρ c))

/-- The kernel's result is the reference's last stage of the launch contents of the arguments. -/
theorem result : W7 m ρ c (Proc.devRef .tc main_v58)
    = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (h3_v58 (W6 m ρ c)).trans ?_
  refine (congrArg (fun z => shapeCast S100000 z shapeCasts_S100000x1_S100000) ((W6_arr m ρ c 2).trans (Region2.final (V5 m ρ) c))).trans ?_
  refine (scoreCol_reshape _ _ _).trans ?_
  refine Eq.trans ?_ (Cert.ReferenceIdeal.Stages.scores_ref _ _ _ _ _ _ _ _ _).symm
  refine congrArg₂ (Sage.scores (M := 100000) (K := 64)) ?_ ?_
  · exact (h2_v49 (W4 m ρ c) _ _ _ _ _ _ _ _ (layer2 m ρ c)).trans
      (congrArg (fun z => val_main_v67 (F := Ideal) _ _ z _ _ _ _ _ _) (W4_main_arg2 m ρ c))
  · exact (h2_v56 (W4 m ρ c) _ _ _ _ _ _ _ _ (layer2 m ρ c)).trans
      (congrArg (fun z => val_main_v76 (F := Ideal) _ _ z _ _ _ _ _ _) (W4_main_arg2 m ρ c))

end Cert.KernelIdeal.Boundary

end
-- ==== Proof.lean ====
/-
  The certificate of a two-layer mean-aggregation graph network with a dot-product decode: the kernel
  program against its plain reference, at the ideal values.

  Both programs gather the features along the edge list's sources, add them up at the targets, divide by the
  clamped in-degree, combine the mean and the node's own features through two weight matrices and a bias
  (rectified in the first layer), do the same once more on the first layer's result, gather the second layer's
  result at the two ends of each queried pair and take the inner product of the two rows. The kernel program
  runs the three dense steps as pipelined regions over ten blocks of 10000 rows, with the weight matrices
  transposed inside the body and the operands narrowed to a shorter float format before each product; the
  reference runs them as whole-array operations. On the extended reals the narrowing is the identity, a block
  of rows of a layer depends on the same rows of its row operands only, and a product with a transposed matrix
  is the same sum either way, so the two programs end with the same vector of scores. No finiteness of the
  inputs is used: the two sides are the same sums of the same products, term for term.

  * the three frames: the kernel program's and the idealized kernel program's by the generated frame of a
    program of several regions, the reference's by its generated run;
  * the idealization preserves the kernel: the ideal pass rewrote no operation;
  * the algebraic claim: the idealized kernel's run with its result named (`Whole.run_result`), the result
    followed through the segments to the reference's last stage (`Boundary.result`), and the reference's
    generated run, whose result is that stage.
-/
import proofs.«100602_j10694468567086_1_alg».proof.Defs
import proofs.«100602_j10694468567086_1_alg».proof.Proof.Gen.Kernel
import proofs.«100602_j10694468567086_1_alg».proof.Proof.Gen.Kernel.Frame
import proofs.«100602_j10694468567086_1_alg».proof.Proof.Gen.KernelIdeal
import proofs.«100602_j10694468567086_1_alg».proof.Proof.Gen.KernelIdeal.Frame
import proofs.«100602_j10694468567086_1_alg».proof.Proof.Gen.ReferenceIdeal
import proofs.«100602_j10694468567086_1_alg».proof.Proof.Gen.Pre_finite_inputs
import proofs.«100602_j10694468567086_1_alg».proof.Proof.Gen.ReferenceIdeal.Run
import proofs.«100602_j10694468567086_1_alg».proof.Proof.Gen.ReferenceIdeal.Read
import proofs.«100602_j10694468567086_1_alg».proof.Proof.KernelRun
import proofs.«100602_j10694468567086_1_alg».proof.Proof.Boundary
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2)
    (Cert.ReferenceIdeal.Value.run (F := Ideal) m ρ)

/-- Both programs end with the reference's last stage of the arguments' launch contents: the kernel program by
    following its result through its segments, the reference by its run; the arguments agree by hypothesis. -/
theorem algebraic : Cert.algebraic_KernelIdeal_ReferenceIdeal := by
  intro m ρ m' ρ' _ hagree
  refine ⟨fun c => Cert.KernelIdeal.Gen.W7 m ρ c (Proc.devRef .tc Cert.KernelIdeal.main_v58), ?_, ?_⟩
  · exact Cert.KernelIdeal.Whole.run_result (F := Ideal) m ρ
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v78_eq, e0, e1, e2, e3, e4, e5, e6, e7, e8]
    exact (Cert.KernelIdeal.Boundary.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
